-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  main_v53

def fn_part2 {F : FTy → Type} [FloatOps F] (main_arg7 : FVec F S1024x1024 .f32) (main_arg8 : FVec F S1024x1024 .f32) (main_arg9 : FVec F S1024 .f32) (main_arg10 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_v48 main_v49 main_v50

def fn_part1 {F : FTy → Type} [FloatOps F] (main_arg4 : FVec F S1024x1024 .f32) (main_arg5 : FVec F S1024x1024 .f32) (main_arg6 : FVec F S1024 .f32) (main_arg7 : FVec F S1024x1024 .f32) (main_arg8 : FVec F S1024x1024 .f32) (main_arg9 : FVec F S1024 .f32) (main_arg10 : FVec F S1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024x1024 .f32) (main_arg5 : FVec F S1024x1024 .f32) (main_arg6 : FVec F S1024 .f32) (main_arg7 : FVec F S1024x1024 .f32) (main_arg8 : FVec F S1024x1024 .f32) (main_arg9 : FVec F S1024 .f32) (main_arg10 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 21
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S16384x1024.size a
  hwx0_11 : ∀ i : grid0.Coords, EltTy.bits .f32 = 32 ∨ (Rect.block (s := S16384x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S16384x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.GruSpec.lean ====
/-
  The GRU cell as ONE function on the extended reals.

  A GRU step takes an input row `u` and a state row `v` (1024 entries each), three pairs of 1024 × 1024
  matrices and three bias rows, and returns the new state row:

    r = σ(u·A_ri + v·A_rh + b_ri)            (reset gate)
    z = σ(u·A_zi + v·A_zh + b_zi)            (update gate)
    c = tanh(u·A_hi + (v ∘ r)·A_hh + b_hi)   (candidate)
    out = (1 − z) ∘ v + z ∘ c

  with σ(t) = 1 / (1 + e^(−t)). Entry `q` of the result depends on the whole rows `u` and `v` (through the
  matrix products) but on no other row of a batch: a batch of rows is processed row by row, which is why the
  result of a batch can be computed on any tiling of the rows.

  Every operation is read on the extended reals (`Ideal`): `+` and `·` are EReal's, σ is `Ideal.logistic`
  (`⊥ ↦ 0`, `⊤ ↦ 1`), tanh is `Ideal.tanh`. The `1` of `1 − z` is kept as the f32 word both programs
  write for it, `0x3F800000`, which denotes `1` (`one_eq`).
-/
import Idealize.ShloMosaic.PureOps.Ideal
import Idealize.ShloMosaic.Lib.ValueIdx

noncomputable section

namespace Cert.Gru

open Idealize.ShloMosaic Idealize.ShloMosaic.ValueIdx

/-- The f32 word of `1.0`, as both programs write it. -/
abbrev one : EReal := Ideal.ofBits .f32 0x3F800000#32

/-- `0x3F800000` has sign 0, biased exponent 127 and mantissa 0: it denotes 2^0 · 1 = 1. -/
theorem one_eq : one = 1 := by
  simp [one, Ideal.ofBits, Ideal.ieee, -EReal.coe_mul]; norm_num

/-- The argument of a gate's nonlinearity at column `q`: two matrix products and a bias,
    `(u·A)_q + (v·B)_q + b_q`, grouped products first. -/
def pre (u v : Fin 1024 → EReal) (A B : Fin 1024 → Fin 1024 → EReal) (b : Fin 1024 → EReal) (q : Fin 1024) : EReal :=
  (∑ k : Fin 1024, u k * A k q) + (∑ k : Fin 1024, v k * B k q) + b q

/-- The same three terms with the bias added before the second product. On the extended reals addition is
    commutative and associative (with `⊤ + ⊥ = ⊥` it is still a commutative monoid), so the grouping does not
    matter: no finiteness is needed. -/
theorem pre_bias_first (u v : Fin 1024 → EReal) (A B : Fin 1024 → Fin 1024 → EReal) (b : Fin 1024 → EReal) (q : Fin 1024) :
    (∑ k : Fin 1024, u k * A k q) + b q + (∑ k : Fin 1024, v k * B k q) = pre u v A B b q :=
  add_right_comm _ _ _

/-- A gate: the logistic function of `pre`. -/
def gate (u v : Fin 1024 → EReal) (A B : Fin 1024 → Fin 1024 → EReal) (b : Fin 1024 → EReal) (q : Fin 1024) : EReal :=
  Ideal.logistic (pre u v A B b q)

/-- The logistic function spelt out with the f32 word for its two ones, `1 / (1 + e^(−t))`, is
    `Ideal.logistic t`: that is its definition once the word is read as `1`. -/
theorem logistic_spelt (t : EReal) : Ideal.div one (one + Ideal.exp (-t)) = Ideal.logistic t := by
  rw [one_eq]; rfl

/-- Entry `q` of the new state row. -/
def cell (u v : Fin 1024 → EReal)
    (Ari Arh : Fin 1024 → Fin 1024 → EReal) (bri : Fin 1024 → EReal)
    (Azi Azh : Fin 1024 → Fin 1024 → EReal) (bzi : Fin 1024 → EReal)
    (Ahi Ahh : Fin 1024 → Fin 1024 → EReal) (bhi : Fin 1024 → EReal) (q : Fin 1024) : EReal :=
  (one - gate u v Azi Azh bzi q) * v q
    + gate u v Azi Azh bzi q * Ideal.tanh (pre u (fun k => v k * gate u v Ari Arh bri k) Ahi Ahh bhi q)

/-! ## A batch of rows -/

/-- Row `p` of an `n × 1024` array. -/
abbrev row {n : Nat} (x : (⟨2, ![n, 1024]⟩ : Shape).Idx → EReal) (p : Fin n) : Fin 1024 → EReal := fun k => x (ix2 p k)

/-- A `1024 × 1024` array as a function of its two coordinates. -/
abbrev mat (w : (⟨2, ![1024, 1024]⟩ : Shape).Idx → EReal) : Fin 1024 → Fin 1024 → EReal := fun k q => w (ix2 k q)

/-- A length-1024 array as a function of its coordinate. -/
abbrev vec (b : (⟨1, ![1024]⟩ : Shape).Idx → EReal) : Fin 1024 → EReal := fun q => b (ix1 q)

/-- The GRU step on a batch of `n` rows, entry `(p, q)`: the cell on row `p` of the inputs and of the states. -/
def batchAt {n : Nat} (x h : (⟨2, ![n, 1024]⟩ : Shape).Idx → EReal)
    (Wri : (⟨2, ![1024, 1024]⟩ : Shape).Idx → EReal) (bri : (⟨1, ![1024]⟩ : Shape).Idx → EReal)
    (Wrh Wzi : (⟨2, ![1024, 1024]⟩ : Shape).Idx → EReal) (bzi : (⟨1, ![1024]⟩ : Shape).Idx → EReal)
    (Wzh Whi : (⟨2, ![1024, 1024]⟩ : Shape).Idx → EReal) (bhi : (⟨1, ![1024]⟩ : Shape).Idx → EReal)
    (Whh : (⟨2, ![1024, 1024]⟩ : Shape).Idx → EReal) (p : Fin n) (q : Fin 1024) : EReal :=
  cell (row x p) (row h p) (mat Wri) (mat Wrh) (vec bri) (mat Wzi) (mat Wzh) (vec bzi) (mat Whi) (mat Whh) (vec bhi) q

/-- The GRU step on the batch of 16384 rows as one array: the arguments in the order the programs take them
    (`x, h, W_ri, b_ri, W_rh, W_zi, b_zi, W_zh, W_hi, b_hi, W_hh`). -/
def batch (x h : (⟨2, ![16384, 1024]⟩ : Shape).Idx → EReal)
    (Wri : (⟨2, ![1024, 1024]⟩ : Shape).Idx → EReal) (bri : (⟨1, ![1024]⟩ : Shape).Idx → EReal)
    (Wrh Wzi : (⟨2, ![1024, 1024]⟩ : Shape).Idx → EReal) (bzi : (⟨1, ![1024]⟩ : Shape).Idx → EReal)
    (Wzh Whi : (⟨2, ![1024, 1024]⟩ : Shape).Idx → EReal) (bhi : (⟨1, ![1024]⟩ : Shape).Idx → EReal)
    (Whh : (⟨2, ![1024, 1024]⟩ : Shape).Idx → EReal) : (⟨2, ![16384, 1024]⟩ : Shape).Idx → EReal :=
  fun i => batchAt x h Wri bri Wrh Wzi bzi Wzh Whi bhi Whh (i 0) (i 1)

theorem batch_ix2 (x h : (⟨2, ![16384, 1024]⟩ : Shape).Idx → EReal)
    (Wri : (⟨2, ![1024, 1024]⟩ : Shape).Idx → EReal) (bri : (⟨1, ![1024]⟩ : Shape).Idx → EReal)
    (Wrh Wzi : (⟨2, ![1024, 1024]⟩ : Shape).Idx → EReal) (bzi : (⟨1, ![1024]⟩ : Shape).Idx → EReal)
    (Wzh Whi : (⟨2, ![1024, 1024]⟩ : Shape).Idx → EReal) (bhi : (⟨1, ![1024]⟩ : Shape).Idx → EReal)
    (Whh : (⟨2, ![1024, 1024]⟩ : Shape).Idx → EReal) (p : Fin 16384) (q : Fin 1024) :
    batch x h Wri bri Wrh Wzi bzi Wzh Whi bhi Whh (ix2 p q) = batchAt x h Wri bri Wrh Wzi bzi Wzh Whi bhi Whh p q := rfl

end Cert.Gru

end
-- ==== Proof.RefIsGru.lean ====
/-
  The reference computes the GRU step.

  The reference program is plain array code: for each gate a matrix product of the inputs, a broadcast bias added to
  it, a matrix product of the states added to that, then the logistic function spelt as `1 / (1 + e^(−t))`; the
  candidate likewise with `tanh` and the reset-gated state `h ∘ r` in the second product; then the blend
  `(1 − z) ∘ h + z ∘ c`. Read at entry `(p, q)` of the batch:

    * a matrix product `X·W` is `∑ k, X (p, k) · W (k, q)` — only row `p` of `X` enters;
    * a bias `b` broadcast to `[1, 1024]` and then over the rows is `b q`;
    * everything else acts entry by entry.

  So the entry is `Gru.cell` on row `p` of `x` and of `h`. The only difference from the specification's
  spelling is the place of the bias in each three-term sum (`Gru.pre_bias_first`) and the logistic function
  written out (`Gru.logistic_spelt`).
-/
import proofs.«137306_j77867757076553_1_alg».proof.Proof.Gen.ReferenceIdeal.Read
import proofs.«137306_j77867757076553_1_alg».proof.Proof.GruSpec

noncomputable section

namespace Cert.Gru.Ref

open Cert.ReferenceIdeal Cert.ReferenceIdeal.Read Cert.Gru Idealize.ShloMosaic Idealize.ShloMosaic.ValueIdx

/-! ## Where each operand is read

At output entry `(p, q)` and contraction index `k` a product's left operand is read at `(p, k)` and its right
operand at `(k, q)`; a bias is read at `q`. -/

theorem lidx_v0 (p : Fin 16384) (q k : Fin 1024) : lidx_main_v0 (ix2 p q) k = ix2 p k :=
  funext fun a => Fin.ext (by match a with | ⟨0, _⟩ => rfl | ⟨1, _⟩ => rfl)
theorem ridx_v0 (p : Fin 16384) (q k : Fin 1024) : ridx_main_v0 (ix2 p q) k = ix2 k q :=
  funext fun a => Fin.ext (by match a with | ⟨0, _⟩ => rfl | ⟨1, _⟩ => rfl)
theorem lidx_v4 (p : Fin 16384) (q k : Fin 1024) : lidx_main_v4 (ix2 p q) k = ix2 p k :=
  funext fun a => Fin.ext (by match a with | ⟨0, _⟩ => rfl | ⟨1, _⟩ => rfl)
theorem ridx_v4 (p : Fin 16384) (q k : Fin 1024) : ridx_main_v4 (ix2 p q) k = ix2 k q :=
  funext fun a => Fin.ext (by match a with | ⟨0, _⟩ => rfl | ⟨1, _⟩ => rfl)
theorem lidx_v12 (p : Fin 16384) (q k : Fin 1024) : lidx_main_v12 (ix2 p q) k = ix2 p k :=
  funext fun a => Fin.ext (by match a with | ⟨0, _⟩ => rfl | ⟨1, _⟩ => rfl)
theorem ridx_v12 (p : Fin 16384) (q k : Fin 1024) : ridx_main_v12 (ix2 p q) k = ix2 k q :=
  funext fun a => Fin.ext (by match a with | ⟨0, _⟩ => rfl | ⟨1, _⟩ => rfl)
theorem lidx_v16 (p : Fin 16384) (q k : Fin 1024) : lidx_main_v16 (ix2 p q) k = ix2 p k :=
  funext fun a => Fin.ext (by match a with | ⟨0, _⟩ => rfl | ⟨1, _⟩ => rfl)
theorem ridx_v16 (p : Fin 16384) (q k : Fin 1024) : ridx_main_v16 (ix2 p q) k = ix2 k q :=
  funext fun a => Fin.ext (by match a with | ⟨0, _⟩ => rfl | ⟨1, _⟩ => rfl)
theorem lidx_v24 (p : Fin 16384) (q k : Fin 1024) : lidx_main_v24 (ix2 p q) k = ix2 p k :=
  funext fun a => Fin.ext (by match a with | ⟨0, _⟩ => rfl | ⟨1, _⟩ => rfl)
theorem ridx_v24 (p : Fin 16384) (q k : Fin 1024) : ridx_main_v24 (ix2 p q) k = ix2 k q :=
  funext fun a => Fin.ext (by match a with | ⟨0, _⟩ => rfl | ⟨1, _⟩ => rfl)
theorem lidx_v29 (p : Fin 16384) (q k : Fin 1024) : lidx_main_v29 (ix2 p q) k = ix2 p k :=
  funext fun a => Fin.ext (by match a with | ⟨0, _⟩ => rfl | ⟨1, _⟩ => rfl)
theorem ridx_v29 (p : Fin 16384) (q k : Fin 1024) : ridx_main_v29 (ix2 p q) k = ix2 k q :=
  funext fun a => Fin.ext (by match a with | ⟨0, _⟩ => rfl | ⟨1, _⟩ => rfl)

theorem bias_v2 (p : Fin 16384) (q : Fin 1024) : idx_main_v1 (idx_main_v2 (ix2 p q)) = ix1 q :=
  funext fun a => Fin.ext (by match a with | ⟨0, _⟩ => rfl)
theorem bias_v14 (p : Fin 16384) (q : Fin 1024) : idx_main_v13 (idx_main_v14 (ix2 p q)) = ix1 q :=
  funext fun a => Fin.ext (by match a with | ⟨0, _⟩ => rfl)
theorem bias_v26 (p : Fin 16384) (q : Fin 1024) : idx_main_v25 (idx_main_v26 (ix2 p q)) = ix1 q :=
  funext fun a => Fin.ext (by match a with | ⟨0, _⟩ => rfl)

/-! ## The gates, the candidate, the blend -/

/-- The reset gate at `(p, q)`: the logistic function, written out, of `(x·W_ri)(p,q) + b_ri q + (h·W_rh)(p,q)`. -/
theorem reset_gate (x0 x1 : (⟨S16384x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal)) (p : Fin 16384) (q : Fin 1024) :
    val_main_v11 (F := Ideal) x0 x1 x2 x3 x4 (ix2 p q) = gate (row x0 p) (row x1 p) (mat x2) (mat x4) (vec x3) q := by
  unfold gate
  rw [← logistic_spelt, ← pre_bias_first,
    val_main_v11_apply, val_main_v10_apply, val_main_cst_0_apply, val_main_v9_apply, val_main_v8_apply, val_main_cst_apply,
    val_main_v7_apply, val_main_v6_apply, val_main_v5_apply, val_main_v3_apply, val_main_v0_apply, val_main_v2_apply,
    val_main_v1_apply, val_main_v4_apply]
  simp only [lidx_v0, ridx_v0, lidx_v4, ridx_v4, bias_v2]
  rfl

/-- The update gate at `(p, q)`, the same with `W_zi`, `b_zi`, `W_zh`. -/
theorem update_gate (x0 x1 : (⟨S16384x1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal)) (p : Fin 16384) (q : Fin 1024) :
    val_main_v23 (F := Ideal) x0 x1 x5 x6 x7 (ix2 p q) = gate (row x0 p) (row x1 p) (mat x5) (mat x7) (vec x6) q := by
  unfold gate
  rw [← logistic_spelt, ← pre_bias_first,
    val_main_v23_apply, val_main_v22_apply, val_main_cst_2_apply, val_main_v21_apply, val_main_v20_apply, val_main_cst_1_apply,
    val_main_v19_apply, val_main_v18_apply, val_main_v17_apply, val_main_v15_apply, val_main_v12_apply, val_main_v14_apply,
    val_main_v13_apply, val_main_v16_apply]
  simp only [lidx_v12, ridx_v12, lidx_v16, ridx_v16, bias_v14]
  rfl

/-- The candidate at `(p, q)`: `tanh` of `(x·W_hi)(p,q) + b_hi q + ((h ∘ r)·W_hh)(p,q)`, the second product over
    row `p` of the state times the reset gate of that row. -/
theorem candidate (x0 x1 : (⟨S16384x1024, .f32⟩ : BufTy).Contents (Elt Ideal)) (x2 : (⟨S1024x1024, .f32⟩ : BufTy).Contents (Elt Ideal))
    (x3 : (⟨S1024, .f32⟩ : BufTy).Contents (Elt Ideal)) (x4 x8 : (⟨S1024x1024, .f32⟩ : BufTy).Contents (Elt Ideal))
    (x9 : (⟨S1024, .f32⟩ : BufTy).Contents (Elt Ideal)) (x10 : (⟨S1024x1024, .f32⟩ : BufTy).Contents (Elt Ideal)) (p : Fin 16384) (q : Fin 1024) :
    val_main_v31 (F := Ideal) x0 x1 x2 x3 x4 x8 x9 x10 (ix2 p q)
      = Ideal.tanh (pre (row x0 p) (fun k => row x1 p k * gate (row x0 p) (row x1 p) (mat x2) (mat x4) (vec x3) k) (mat x8) (mat x10) (vec x9) q) := by
  rw [← pre_bias_first,
    val_main_v31_apply, val_main_v30_apply, val_main_v27_apply, val_main_v24_apply, val_main_v26_apply, val_main_v25_apply,
    val_main_v29_apply]
  simp only [lidx_v24, ridx_v24, lidx_v29, ridx_v29, bias_v26, val_main_v28_apply, reset_gate]
  rfl

/-- THE REFERENCE'S RESULT is the GRU step on the batch. -/
theorem result_eq (x0 x1 : (⟨S16384x1024, .f32⟩ : BufTy).Contents (Elt Ideal)) (x2 : (⟨S1024x1024, .f32⟩ : BufTy).Contents (Elt Ideal))
    (x3 : (⟨S1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal)) (x10 : (⟨S1024x1024, .f32⟩ : BufTy).Contents (Elt Ideal)) :
    val_main_v36 (F := Ideal) x0 x1 x2 x3 x4 x5 x6 x7 x8 x9 x10 = batch x0 x1 x2 x3 x4 x5 x6 x7 x8 x9 x10 := by
  funext i
  obtain ⟨p, q, rfl⟩ : ∃ (p : Fin 16384) (q : Fin 1024), i = ix2 p q := ⟨i 0, i 1, eq_ix2 i⟩
  rw [batch_ix2, val_main_v36_apply, val_main_v34_apply, val_main_v33_apply, val_main_v32_apply, val_main_cst_3_apply,
    val_main_v35_apply, update_gate, candidate]
  rfl

end Cert.Gru.Ref

end
-- ==== Proof.BodyIsGru.lean ====
/-
  One grid point's body computes the GRU step on its block of rows.

  The body loads a block of 256 rows of `x` and of `h`, the six whole weight matrices and the three bias rows
  (each `[1, 1024]`), and stores one `[256, 1024]` block. Read at entry `(p, q)` of the block:

    * a matrix product into a zero accumulator is `∑ k, L (p, k) · R (k, q)`;
    * narrowing a value to sixteen bits before a product changes nothing on the extended reals;
    * a bias row broadcast over the 256 rows is its entry `(0, q)`;
    * everything else acts entry by entry.

  So the stored entry is `Gru.cell` on row `p` of the two loaded blocks: rows do not interact.
-/
import proofs.«137306_j77867757076553_1_alg».proof.Proof.Gen.KernelIdeal.Skeleton
import proofs.«137306_j77867757076553_1_alg».proof.Proof.GruSpec
import Idealize.ShloMosaic.PureOps.Ideal.Laws
import Idealize.ShloMosaic.Lib.Pipeline.Value
import Idealize.ShloMosaic.Lib.ValueLayout

noncomputable section

namespace Cert.Gru.Body

open Cert.KernelIdeal Cert.KernelIdeal.Gen Cert.Gru Idealize.ShloMosaic Idealize.ShloMosaic.ValueIdx

/-- The one row of a `[1, 1024]` array as a function of the column. -/
abbrev brow (b : (⟨2, ![1, 1024]⟩ : Shape).Idx → EReal) : Fin 1024 → EReal := fun q => b (ix2 (0 : Fin 1) q)

/-! ## A `[256, 1024] × [1024, 1024]` product at an entry -/

theorem lhs_row (i : S256x1024.Idx) (κ : dot_S256x1024_S1024x1024_S256x1024_1_0_0_1_n_n.contr.Idx) :
    (dot_S256x1024_S1024x1024_S256x1024_1_0_0_1_n_n.lhsIdx i κ 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem rhs_col (i : S256x1024.Idx) (κ : dot_S256x1024_S1024x1024_S256x1024_1_0_0_1_n_n.contr.Idx) :
    (dot_S256x1024_S1024x1024_S256x1024_1_0_0_1_n_n.rhsIdx i κ 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The product of a block of rows with a matrix, accumulated from zero, at entry `(p, q)`: row `p` of the block
    against column `q` of the matrix. -/
theorem matmul_at {φ₁ φ₂ : FTy} (lhs : FVec Ideal S256x1024 φ₁) (rhs : FVec Ideal S1024x1024 φ₂) (p : Fin 256) (q : Fin 1024) :
    FloatOps.matmul dot_S256x1024_S1024x1024_S256x1024_1_0_0_1_n_n none lhs rhs (constant S256x1024 .f32 0x00000000#32) (ix2 p q)
      = ∑ k : Fin 1024, lhs (ix2 p k) * rhs (ix2 k q) := by
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q)
      ((contrEquiv1 dot_S256x1024_S1024x1024_S256x1024_1_0_0_1_n_n 1024 rfl rfl).symm k) = ix2 p k :=
    funext fun a => Fin.ext (by
      match a with
      | ⟨0, _⟩ => exact lhs_row _ _
      | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p q)
      ((contrEquiv1 dot_S256x1024_S1024x1024_S256x1024_1_0_0_1_n_n 1024 rfl rfl).symm k) = ix2 k q :=
    funext fun a => Fin.ext (by
      match a with
      | ⟨0, _⟩ => exact (dot_S256x1024_S1024x1024_S256x1024_1_0_0_1_n_n.rhsIdx_val_of_single rfl _ _).trans hk
      | ⟨1, _⟩ => exact rhs_col _ _)
  rw [el, er]

/-! ## The pieces of the body at an entry -/

/-- The input block's product with a weight matrix (the candidate's first term). -/
theorem input_product_at (x0 : Vec Ideal S256x1024 .f32) (w : Vec Ideal S1024x1024 .bf16) (p : Fin 256) (q : Fin 1024) :
    k0_pay6 x0 w (ix2 p q) = ∑ k : Fin 1024, row x0 p k * mat w k q := by
  unfold k0_pay6 k0_pay2
  simp only [matmul]
  rw [matmul_at, shapeCast_self]
  rfl

/-- A gate of the body (the update gate's payload): the logistic function of the two products and the bias row. -/
theorem update_gate_at (x0 x1 : Vec Ideal S256x1024 .f32) (wi wh : Vec Ideal S1024x1024 .bf16) (b : Vec Ideal S1x1024 .f32)
    (p : Fin 256) (q : Fin 1024) :
    k0_pay4 x0 x1 wi wh b (ix2 p q) = gate (row x0 p) (row x1 p) (mat wi) (mat wh) (brow b) q := by
  unfold k0_pay4 k0_pay2 k0_pay3
  simp only [matmul, logistic, addf]
  rw [matmul_at, matmul_at, shapeCast_self, shapeCast_self, shapeCast_self, broadcastTo_1b_ab_apply]
  rfl

/-- The state block times the reset gate, as the body forms it before the candidate's second product. -/
theorem gated_state_at (x0 x1 : Vec Ideal S256x1024 .f32) (wi wh : Vec Ideal S1024x1024 .bf16) (b : Vec Ideal S1x1024 .f32)
    (p : Fin 256) (k : Fin 1024) :
    k0_pay5 x0 x1 wi wh b (ix2 p k) = row x1 p k * gate (row x0 p) (row x1 p) (mat wi) (mat wh) (brow b) k := by
  unfold k0_pay5 k0_pay2 k0_pay3
  simp only [matmul, logistic, addf, mulf, truncf]
  rw [matmul_at, matmul_at, shapeCast_self, shapeCast_self, shapeCast_self, broadcastTo_1b_ab_apply]
  rfl

/-- The stored value from the state block `v1`, the update gate `z`, the gated state `g`, the input product `s`, the
    last weight matrix and bias row: `(1 − z) · v1 + z · tanh (s + g·W + b)` at `(p, q)`. -/
theorem blend_at (v1 : Vec Ideal S256x1024 .f32) (z : FVec Ideal S256x1024 .f32) (g : FVec Ideal S256x1024 .bf16)
    (s : FVec Ideal S256x1024 .f32) (w : Vec Ideal S1024x1024 .bf16) (b : Vec Ideal S1x1024 .f32) (p : Fin 256) (q : Fin 1024) :
    k0_pay1 v1 z g s w b (ix2 p q)
      = (one - z (ix2 p q)) * v1 (ix2 p q)
        + z (ix2 p q) * Ideal.tanh (s (ix2 p q) + (∑ k : Fin 1024, g (ix2 p k) * mat w k q) + brow b q) := by
  unfold k0_pay1
  simp only [matmul, tanh, addf, mulf, subf, broadcast]
  rw [matmul_at, shapeCast_self, shapeCast_self, broadcastTo_1b_ab_apply]
  rfl

/-! ## The body -/

/-- THE BLOCK ENTRY the body stores, from the loaded blocks `x0` (inputs), `x1` (states), the weight matrices
    `x2, x4, x5, x7, x8, x10` and the bias rows `x3, x6, x9`, in the order of the kernel's operands. -/
theorem body_at (x0 x1 : Vec Ideal S256x1024 .f32) (x2 : Vec Ideal S1024x1024 .bf16) (x3 : Vec Ideal S1x1024 .f32)
    (x4 x5 : Vec Ideal S1024x1024 .bf16) (x6 : Vec Ideal S1x1024 .f32) (x7 x8 : Vec Ideal S1024x1024 .bf16)
    (x9 : Vec Ideal S1x1024 .f32) (x10 : Vec Ideal S1024x1024 .bf16) (p : Fin 256) (q : Fin 1024) :
    k0_pay1 x1 (k0_pay4 x0 x1 x5 x7 x6) (k0_pay5 x0 x1 x2 x4 x3) (k0_pay6 x0 x8) x10 x9 (ix2 p q)
      = cell (row x0 p) (row x1 p) (mat x2) (mat x4) (brow x3) (mat x5) (mat x7) (brow x6) (mat x8) (mat x10) (brow x9) q := by
  rw [blend_at, update_gate_at, input_product_at]
  simp only [gated_state_at]
  rfl

end Cert.Gru.Body

end
-- ==== Proof.KernelIsGru.lean ====
/-
  The kernel computes the GRU step.

  The kernel's grid has 64 points; point `t` works on rows `256·t … 256·t + 255` of the batch: it is handed that block of
  `x` and of `h`, the six whole weight matrices (narrowed to sixteen bits on the way, which changes nothing on the
  extended reals) and the three bias vectors laid out as single rows, and it writes that block of rows of the result.

  Because an entry of the GRU step depends only on its own row of `x` and `h` (`Gru.batchAt`), what point `t` writes is
  block `t` of `Gru.batch` of the argument arrays; the 64 blocks tile the 16384 rows; so the result array is `Gru.batch`.
-/
import proofs.«137306_j77867757076553_1_alg».proof.Proof.Gen.KernelIdeal.Value
import proofs.«137306_j77867757076553_1_alg».proof.Proof.BodyIsGru
import Idealize.ShloMosaic.Lib.StableHlo.Run

noncomputable section

namespace Cert.Gru.Kernel

open Cert.KernelIdeal Cert.KernelIdeal.Gen Cert.Gru Cert.Gru.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the grid points read, when the grid starts

Before the grid the program narrows each weight matrix to sixteen bits — the identity here — and lays each bias vector
out as one row. -/

theorem V_wri (c : Dev nD) : (V m c main_v0 : S1024x1024.Idx → EReal) = (m ((c : Thread nD τ).loc main_arg2)) := by
  dsimp only [Gen.V, Gen.hostOps0]; after_results; rfl
theorem V_wrh (c : Dev nD) : (V m c main_v1 : S1024x1024.Idx → EReal) = (m ((c : Thread nD τ).loc main_arg4)) := by
  dsimp only [Gen.V, Gen.hostOps0]; after_results; rfl
theorem V_wzi (c : Dev nD) : (V m c main_v2 : S1024x1024.Idx → EReal) = (m ((c : Thread nD τ).loc main_arg5)) := by
  dsimp only [Gen.V, Gen.hostOps0]; after_results; rfl
theorem V_wzh (c : Dev nD) : (V m c main_v3 : S1024x1024.Idx → EReal) = (m ((c : Thread nD τ).loc main_arg7)) := by
  dsimp only [Gen.V, Gen.hostOps0]; after_results; rfl
theorem V_whi (c : Dev nD) : (V m c main_v4 : S1024x1024.Idx → EReal) = (m ((c : Thread nD τ).loc main_arg8)) := by
  dsimp only [Gen.V, Gen.hostOps0]; after_results; rfl
theorem V_whh (c : Dev nD) : (V m c main_v5 : S1024x1024.Idx → EReal) = (m ((c : Thread nD τ).loc main_arg10)) := by
  dsimp only [Gen.V, Gen.hostOps0]; after_results; rfl
theorem V_bri (c : Dev nD) : (V m c main_v6 : S1x1024.Idx → EReal)
    = shapeCast S1x1024 ((m ((c : Thread nD τ).loc main_arg3)) : S1024.Idx → EReal) shapeCasts_S1024_S1x1024 := by
  dsimp only [Gen.V, Gen.hostOps0]; after_results; rfl
theorem V_bzi (c : Dev nD) : (V m c main_v7 : S1x1024.Idx → EReal)
    = shapeCast S1x1024 ((m ((c : Thread nD τ).loc main_arg6)) : S1024.Idx → EReal) shapeCasts_S1024_S1x1024 := by
  dsimp only [Gen.V, Gen.hostOps0]; after_results; rfl
theorem V_bhi (c : Dev nD) : (V m c main_v8 : S1x1024.Idx → EReal)
    = shapeCast S1x1024 ((m ((c : Thread nD τ).loc main_arg9)) : S1024.Idx → EReal) shapeCasts_S1024_S1x1024 := by
  dsimp only [Gen.V, Gen.hostOps0]; after_results; rfl

/-- The GRU step of the argument arrays as launched. -/
abbrev result (c : Dev nD) : S16384x1024.Idx → EReal :=
  batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))

/-! ## Where the blocks sit

The block index maps, decided once over the 64 grid points: the blocks of `x`, `h` and the result move together down the
rows and stay at column block 0; every other operand is one block at `(0, 0)`. -/

theorem hz : (![0, 0] : Fin 2 → Nat) = fun _ => 0 := funext fun a => by fin_cases a <;> rfl

theorem block_indices : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_11.index t (0 : Fin 2) ≤ 63 ∧ win0_11.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Every block of rows is some point's. -/
theorem block_onto : ∀ b : Fin 64, ∃ t : Fin cfg0.N, win0_11.index t = ![b.val, 0] :=
  (by decide +kernel : ∀ b : Fin 64, ∃ t : Fin grid0.N, win0_11.index t = ![b.val, 0])

/-- The row of the batch that row `p` of point `t`'s blocks is. -/
def absRow (t : Fin cfg0.N) (p : Fin 256) : Fin 16384 :=
  ⟨win0_11.index t (0 : Fin 2) * 256 + p.val, by
    have h := (block_indices t).2.2.2.2.1
    have hp := p.isLt
    omega⟩

/-- Entry `(p, q)` of point `t`'s result block is entry `(absRow t p, q)` of the result array. -/
theorem emb_out (t : Fin cfg0.N) (p : Fin 256) (q : Fin 1024) :
    ((cfg0.win 11).blk t).view.emb (ix2 p q) = ix2 (absRow t p) q := by
  obtain ⟨-, -, -, -, -, e1, -⟩ := block_indices t
  funext a; apply Fin.ext
  match a with
  | ⟨0, _⟩ => show win0_11.index t (0 : Fin 2) * 256 + 1 * p.val = win0_11.index t (0 : Fin 2) * 256 + p.val; omega
  | ⟨1, _⟩ => show win0_11.index t (1 : Fin 2) * 1024 + 1 * q.val = q.val; omega

/-- Row `p` of point `t`'s block of `x` is row `absRow t p` of `x`. -/
theorem x_block (c : Dev nD) (t : Fin cfg0.N) (p : Fin 256) (k : Fin 1024) :
    iblk m c 0 t (ix2 p k) = ((m ((c : Thread nD τ).loc main_arg0)) : S16384x1024.Idx → EReal) (ix2 (absRow t p) k) := by
  obtain ⟨e0, e1, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = win0_11.index t (0 : Fin 2) * 256 + p.val; omega
  | ⟨1, _⟩ => show win0_0.index t (1 : Fin 2) * 1024 + 1 * k.val = k.val; omega

/-- Row `p` of point `t`'s block of `h` is row `absRow t p` of `h`. -/
theorem h_block (c : Dev nD) (t : Fin cfg0.N) (p : Fin 256) (k : Fin 1024) :
    iblk m c 1 t (ix2 p k) = ((m ((c : Thread nD τ).loc main_arg1)) : S16384x1024.Idx → EReal) (ix2 (absRow t p) k) := by
  obtain ⟨-, -, e0, e1, -⟩ := block_indices t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = win0_11.index t (0 : Fin 2) * 256 + p.val; omega
  | ⟨1, _⟩ => show win0_1.index t (1 : Fin 2) * 1024 + 1 * k.val = k.val; omega

/-- Point `t`'s block of `W_ri` is the whole matrix. -/
theorem w2_block (c : Dev nD) (t : Fin cfg0.N) (k q : Fin 1024) :
    iblk m c 2 t (ix2 k q) = ((m ((c : Thread nD τ).loc main_arg2)) : S1024x1024.Idx → EReal) (ix2 k q) := by
  have e0 : win0_2.index t (0 : Fin 2) = 0 := by have h := block_indices t; exact h.2.2.2.2.2.2.1
  have e1 : win0_2.index t (1 : Fin 2) = 0 := by have h := block_indices t; exact h.2.2.2.2.2.2.2.1
  show V m c main_v0 (((cfg0.win 2).blk t).view.emb (ix2 k q)) = _
  rw [V_wri]
  refine congrArg _ (funext fun a => Fin.ext ?_)
  match a with
  | ⟨0, _⟩ => show win0_2.index t (0 : Fin 2) * 1024 + 1 * k.val = k.val; omega
  | ⟨1, _⟩ => show win0_2.index t (1 : Fin 2) * 1024 + 1 * q.val = q.val; omega

/-- Point `t`'s block of `W_rh` is the whole matrix. -/
theorem w4_block (c : Dev nD) (t : Fin cfg0.N) (k q : Fin 1024) :
    iblk m c 4 t (ix2 k q) = ((m ((c : Thread nD τ).loc main_arg4)) : S1024x1024.Idx → EReal) (ix2 k q) := by
  have e0 : win0_4.index t (0 : Fin 2) = 0 := by have h := block_indices t; exact h.2.2.2.2.2.2.2.2.2.2.1
  have e1 : win0_4.index t (1 : Fin 2) = 0 := by have h := block_indices t; exact h.2.2.2.2.2.2.2.2.2.2.2.1
  show V m c main_v1 (((cfg0.win 4).blk t).view.emb (ix2 k q)) = _
  rw [V_wrh]
  refine congrArg _ (funext fun a => Fin.ext ?_)
  match a with
  | ⟨0, _⟩ => show win0_4.index t (0 : Fin 2) * 1024 + 1 * k.val = k.val; omega
  | ⟨1, _⟩ => show win0_4.index t (1 : Fin 2) * 1024 + 1 * q.val = q.val; omega

/-- Point `t`'s block of `W_zi` is the whole matrix. -/
theorem w5_block (c : Dev nD) (t : Fin cfg0.N) (k q : Fin 1024) :
    iblk m c 5 t (ix2 k q) = ((m ((c : Thread nD τ).loc main_arg5)) : S1024x1024.Idx → EReal) (ix2 k q) := by
  have e0 : win0_5.index t (0 : Fin 2) = 0 := by have h := block_indices t; exact h.2.2.2.2.2.2.2.2.2.2.2.2.1
  have e1 : win0_5.index t (1 : Fin 2) = 0 := by have h := block_indices t; exact h.2.2.2.2.2.2.2.2.2.2.2.2.2.1
  show V m c main_v2 (((cfg0.win 5).blk t).view.emb (ix2 k q)) = _
  rw [V_wzi]
  refine congrArg _ (funext fun a => Fin.ext ?_)
  match a with
  | ⟨0, _⟩ => show win0_5.index t (0 : Fin 2) * 1024 + 1 * k.val = k.val; omega
  | ⟨1, _⟩ => show win0_5.index t (1 : Fin 2) * 1024 + 1 * q.val = q.val; omega

/-- Point `t`'s block of `W_zh` is the whole matrix. -/
theorem w7_block (c : Dev nD) (t : Fin cfg0.N) (k q : Fin 1024) :
    iblk m c 7 t (ix2 k q) = ((m ((c : Thread nD τ).loc main_arg7)) : S1024x1024.Idx → EReal) (ix2 k q) := by
  have e0 : win0_7.index t (0 : Fin 2) = 0 := by have h := block_indices t; exact h.2.2.2.2.2.2.2.2.2.2.2.2.2.2.2.2.1
  have e1 : win0_7.index t (1 : Fin 2) = 0 := by have h := block_indices t; exact h.2.2.2.2.2.2.2.2.2.2.2.2.2.2.2.2.2.1
  show V m c main_v3 (((cfg0.win 7).blk t).view.emb (ix2 k q)) = _
  rw [V_wzh]
  refine congrArg _ (funext fun a => Fin.ext ?_)
  match a with
  | ⟨0, _⟩ => show win0_7.index t (0 : Fin 2) * 1024 + 1 * k.val = k.val; omega
  | ⟨1, _⟩ => show win0_7.index t (1 : Fin 2) * 1024 + 1 * q.val = q.val; omega

/-- Point `t`'s block of `W_hi` is the whole matrix. -/
theorem w8_block (c : Dev nD) (t : Fin cfg0.N) (k q : Fin 1024) :
    iblk m c 8 t (ix2 k q) = ((m ((c : Thread nD τ).loc main_arg8)) : S1024x1024.Idx → EReal) (ix2 k q) := by
  have e0 : win0_8.index t (0 : Fin 2) = 0 := by have h := block_indices t; exact h.2.2.2.2.2.2.2.2.2.2.2.2.2.2.2.2.2.2.1
  have e1 : win0_8.index t (1 : Fin 2) = 0 := by have h := block_indices t; exact h.2.2.2.2.2.2.2.2.2.2.2.2.2.2.2.2.2.2.2.1
  show V m c main_v4 (((cfg0.win 8).blk t).view.emb (ix2 k q)) = _
  rw [V_whi]
  refine congrArg _ (funext fun a => Fin.ext ?_)
  match a with
  | ⟨0, _⟩ => show win0_8.index t (0 : Fin 2) * 1024 + 1 * k.val = k.val; omega
  | ⟨1, _⟩ => show win0_8.index t (1 : Fin 2) * 1024 + 1 * q.val = q.val; omega

/-- Point `t`'s block of `W_hh` is the whole matrix. -/
theorem w10_block (c : Dev nD) (t : Fin cfg0.N) (k q : Fin 1024) :
    iblk m c 10 t (ix2 k q) = ((m ((c : Thread nD τ).loc main_arg10)) : S1024x1024.Idx → EReal) (ix2 k q) := by
  have e0 : win0_10.index t (0 : Fin 2) = 0 := by have h := block_indices t; exact h.2.2.2.2.2.2.2.2.2.2.2.2.2.2.2.2.2.2.2.2.2.2.1
  have e1 : win0_10.index t (1 : Fin 2) = 0 := by have h := block_indices t; exact h.2.2.2.2.2.2.2.2.2.2.2.2.2.2.2.2.2.2.2.2.2.2.2
  show V m c main_v5 (((cfg0.win 10).blk t).view.emb (ix2 k q)) = _
  rw [V_whh]
  refine congrArg _ (funext fun a => Fin.ext ?_)
  match a with
  | ⟨0, _⟩ => show win0_10.index t (0 : Fin 2) * 1024 + 1 * k.val = k.val; omega
  | ⟨1, _⟩ => show win0_10.index t (1 : Fin 2) * 1024 + 1 * q.val = q.val; omega

/-- Point `t`'s block of `b_ri` laid out as a row is that one row: its entry `(0, q)` is `b_ri q`. -/
theorem b3_block (c : Dev nD) (t : Fin cfg0.N) (q : Fin 1024) :
    iblk m c 3 t (ix2 (0 : Fin 1) q) = ((m ((c : Thread nD τ).loc main_arg3)) : S1024.Idx → EReal) (ix1 q) := by
  have e0 : win0_3.index t (0 : Fin 2) = 0 := by have h := block_indices t; exact h.2.2.2.2.2.2.2.2.1
  have e1 : win0_3.index t (1 : Fin 2) = 0 := by have h := block_indices t; exact h.2.2.2.2.2.2.2.2.2.1
  show V m c main_v6 (((cfg0.win 3).blk t).view.emb (ix2 (0 : Fin 1) q)) = _
  rw [V_bri]
  have he : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 1024 + 1 * q.val = q.val; omega
  rw [he]
  exact shapeCast_a_1a_apply _ _ 0 q

/-- Point `t`'s block of `b_zi` laid out as a row is that one row: its entry `(0, q)` is `b_zi q`. -/
theorem b6_block (c : Dev nD) (t : Fin cfg0.N) (q : Fin 1024) :
    iblk m c 6 t (ix2 (0 : Fin 1) q) = ((m ((c : Thread nD τ).loc main_arg6)) : S1024.Idx → EReal) (ix1 q) := by
  have e0 : win0_6.index t (0 : Fin 2) = 0 := by have h := block_indices t; exact h.2.2.2.2.2.2.2.2.2.2.2.2.2.2.1
  have e1 : win0_6.index t (1 : Fin 2) = 0 := by have h := block_indices t; exact h.2.2.2.2.2.2.2.2.2.2.2.2.2.2.2.1
  show V m c main_v7 (((cfg0.win 6).blk t).view.emb (ix2 (0 : Fin 1) q)) = _
  rw [V_bzi]
  have he : ((cfg0.win 6).blk t).view.emb (ix2 (0 : Fin 1) q) = ix2 (0 : Fin 1) q := by
    funext a; apply Fin.ext
    match a with
    | ⟨0, _⟩ => show win0_6.index t (0 : Fin 2) * 1 + 1 * 0 = 0; omega
    | ⟨1, _⟩ => show win0_6.index t (1 : Fin 2) * 1024 + 1 * q.val = q.val; omega
  rw [he]
  exact shapeCast_a_1a_apply _ _ 0 q

/-- Point `t`'s block of `b_hi` laid out as a row is that one row: its entry `(0, q)` is `b_hi q`. -/
theorem b9_block (c : Dev nD) (t : Fin cfg0.N) (q : Fin 1024) :
    iblk m c 9 t (ix2 (0 : Fin 1) q) = ((m ((c : Thread nD τ).loc main_arg9)) : S1024.Idx → EReal) (ix1 q) := by
  have e0 : win0_9.index t (0 : Fin 2) = 0 := by have h := block_indices t; exact h.2.2.2.2.2.2.2.2.2.2.2.2.2.2.2.2.2.2.2.2.1
  have e1 : win0_9.index t (1 : Fin 2) = 0 := by have h := block_indices t; exact h.2.2.2.2.2.2.2.2.2.2.2.2.2.2.2.2.2.2.2.2.2.1
  show V m c main_v8 (((cfg0.win 9).blk t).view.emb (ix2 (0 : Fin 1) q)) = _
  rw [V_bhi]
  have he : ((cfg0.win 9).blk t).view.emb (ix2 (0 : Fin 1) q) = ix2 (0 : Fin 1) q := by
    funext a; apply Fin.ext
    match a with
    | ⟨0, _⟩ => show win0_9.index t (0 : Fin 2) * 1 + 1 * 0 = 0; omega
    | ⟨1, _⟩ => show win0_9.index t (1 : Fin 2) * 1024 + 1 * q.val = q.val; omega
  rw [he]
  exact shapeCast_a_1a_apply _ _ 0 q

/-! ## One point writes its block of the GRU step -/

/-- Stated over blocks and arrays as variables: if the eleven blocks are the rows `r p` of `x` and `h`, the whole weight
    matrices and the bias vectors, and block entry `(p, q)` sits at `(r p, q)`, then the body's value at a block entry is
    the GRU step's value where that entry sits. -/
theorem body_is_block (B0 B1 : Vec Ideal S256x1024 .f32) (B2 : Vec Ideal S1024x1024 .bf16) (B3 : Vec Ideal S1x1024 .f32)
    (B4 B5 : Vec Ideal S1024x1024 .bf16) (B6 : Vec Ideal S1x1024 .f32) (B7 B8 : Vec Ideal S1024x1024 .bf16)
    (B9 : Vec Ideal S1x1024 .f32) (B10 : Vec Ideal S1024x1024 .bf16)
    (X H : S16384x1024.Idx → EReal) (Wri : S1024x1024.Idx → EReal) (bri : S1024.Idx → EReal) (Wrh Wzi : S1024x1024.Idx → EReal)
    (bzi : S1024.Idx → EReal) (Wzh Whi : S1024x1024.Idx → EReal) (bhi : S1024.Idx → EReal) (Whh : S1024x1024.Idx → EReal)
    (e : S256x1024.Idx → S16384x1024.Idx) (r : Fin 256 → Fin 16384)
    (he : ∀ (p : Fin 256) (q : Fin 1024), e (ix2 p q) = ix2 (r p) q)
    (h0 : ∀ (p : Fin 256) (k : Fin 1024), B0 (ix2 p k) = X (ix2 (r p) k))
    (h1 : ∀ (p : Fin 256) (k : Fin 1024), B1 (ix2 p k) = H (ix2 (r p) k))
    (h2 : ∀ k q : Fin 1024, B2 (ix2 k q) = Wri (ix2 k q)) (h3 : ∀ q : Fin 1024, B3 (ix2 (0 : Fin 1) q) = bri (ix1 q))
    (h4 : ∀ k q : Fin 1024, B4 (ix2 k q) = Wrh (ix2 k q)) (h5 : ∀ k q : Fin 1024, B5 (ix2 k q) = Wzi (ix2 k q))
    (h6 : ∀ q : Fin 1024, B6 (ix2 (0 : Fin 1) q) = bzi (ix1 q))
    (h7 : ∀ k q : Fin 1024, B7 (ix2 k q) = Wzh (ix2 k q)) (h8 : ∀ k q : Fin 1024, B8 (ix2 k q) = Whi (ix2 k q))
    (h9 : ∀ q : Fin 1024, B9 (ix2 (0 : Fin 1) q) = bhi (ix1 q)) (h10 : ∀ k q : Fin 1024, B10 (ix2 k q) = Whh (ix2 k q))
    (y : S256x1024.Idx) :
    k0_pay1 B1 (k0_pay4 B0 B1 B5 B7 B6) (k0_pay5 B0 B1 B2 B4 B3) (k0_pay6 B0 B8) B10 B9 y
      = batch X H Wri bri Wrh Wzi bzi Wzh Whi bhi Whh (e y) := by
  obtain ⟨p, q, rfl⟩ : ∃ (p : Fin 256) (q : Fin 1024), y = ix2 p q := ⟨y 0, y 1, eq_ix2 y⟩
  rw [body_at, he, batch_ix2]
  unfold batchAt
  rw [show row B0 p = row X (r p) from funext (h0 p), show row B1 p = row H (r p) from funext (h1 p),
    show mat B2 = mat Wri from funext fun k => funext (h2 k), show mat B4 = mat Wrh from funext fun k => funext (h4 k),
    show brow B3 = vec bri from funext h3, show mat B5 = mat Wzi from funext fun k => funext (h5 k),
    show mat B7 = mat Wzh from funext fun k => funext (h7 k), show brow B6 = vec bzi from funext h6,
    show mat B8 = mat Whi from funext fun k => funext (h8 k), show mat B10 = mat Whh from funext fun k => funext (h10 k),
    show brow B9 = vec bhi from funext h9]

/-- WHAT POINT `t` WRITES BACK is block `t` of the GRU step of the argument arrays. -/
theorem flushed_eq (c : Dev nD) (t : Fin cfg0.N) :
    (dats m 0 c).flushed 11 t = ((cfg0.win 11).blk t).view.read (Elt Ideal) (result m c) := by
  rw [Cert.KernelIdeal.Value.flushed11]
  unfold out0_11
  rw [View.canon_unit_zero hz]
  simp only [View.ld_unit_zero (S := S256x1024) hz, View.ld_unit_zero (S := S1024x1024) hz, View.ld_unit_zero (S := S1x1024) hz]
  funext j
  exact body_is_block (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))
    ((cfg0.win 11).blk t).view.emb (absRow t) (emb_out t)
    (x_block m c t) (h_block m c t) (w2_block m c t) (b3_block m c t) (w4_block m c t) (w5_block m c t) (b6_block m c t)
    (w7_block m c t) (w8_block m c t) (b9_block m c t) (w10_block m c t) j

/-! ## The 64 blocks tile the rows -/

/-- An index of the result array is in point `t`'s block iff each coordinate is in the block's range on its axis. -/
theorem mem_blk (t : Fin cfg0.N) (i : S16384x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v9).slice (win0_11.rect t)).set ↔ _
  rw [View.set_slice_whole, Rect.mem_set_unit]
  exact Iff.rfl

/-- Row `ρ` of the result is written by the point whose block index is `ρ / 256`. -/
theorem cover (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  obtain ⟨t, ht⟩ := block_onto ⟨(i 0).val / 256, by omega⟩
  have q0 : win0_11.index t (0 : Fin 2) = (i 0).val / 256 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- THE RESULT ARRAY after the grid is the GRU step of the argument arrays. -/
theorem final (c : Dev nD) : (dats m 0 c).arrAt 11 cfg0.N = result m c :=
  (dats m 0 c).arrAt_eq_of_cover 11 (result m c) (fun t _ => flushed_eq m c t) cover

/-- The kernel's run: every weakly fair execution terminates with the result at the GRU step of the arguments, the
    arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.Gru.Kernel

end
-- ==== Proof.lean ====
/-
  A GRU cell, tiled over rows, against the plain array program.

  Both programs take a batch `x` of 16384 input rows and `h` of 16384 state rows (1024 entries each), six
  1024 × 1024 weight matrices and three bias vectors, and return the new states

      r = σ(x·W_ri + h·W_rh + b_ri),   z = σ(x·W_zi + h·W_zh + b_zi),
      c = tanh(x·W_hi + (h ∘ r)·W_hh + b_hi),   h' = (1 − z) ∘ h + z ∘ c,        σ(t) = 1 / (1 + e^(−t)).

  One program computes this on whole arrays; the other cuts the rows into 64 blocks of 256 and computes each block at its
  own grid point, with the weights narrowed to sixteen bits before each product. On the extended reals the two agree:

    * narrowing is the identity, and a product accumulated from zero is the plain sum of products;
    * an entry of `h'` depends only on its own row of `x` and `h`, so computing block by block changes nothing, and the
      64 blocks tile the 16384 rows (`Gru.Kernel.flushed_eq`, `Gru.Kernel.cover`);
    * one program adds the bias after the two products and the other between them: addition of extended reals is
      commutative and associative, infinities included (`Gru.pre_bias_first`);
    * one program writes σ as a single operation and the other spells `1 / (1 + e^(−t))`: the same function, by
      definition, once the f32 word `0x3F800000` is read as `1` (`Gru.logistic_spelt`).

  No step uses that the inputs are finite. Both results are the one function `Gru.batch` of the argument arrays
  (`Gru.Kernel.run`, `Gru.Ref.result_eq`). The tiled program's idealization rewrote nothing, so it is trivially preserved.
-/
import proofs.«137306_j77867757076553_1_alg».proof.Defs
import proofs.«137306_j77867757076553_1_alg».proof.Proof.Gen.Kernel
import proofs.«137306_j77867757076553_1_alg».proof.Proof.Gen.Kernel.Skeleton
import proofs.«137306_j77867757076553_1_alg».proof.Proof.Gen.Kernel.Launch
import proofs.«137306_j77867757076553_1_alg».proof.Proof.Gen.Kernel.Points
import proofs.«137306_j77867757076553_1_alg».proof.Proof.Gen.Kernel.Frame
import proofs.«137306_j77867757076553_1_alg».proof.Proof.Gen.KernelIdeal
import proofs.«137306_j77867757076553_1_alg».proof.Proof.Gen.KernelIdeal.Skeleton
import proofs.«137306_j77867757076553_1_alg».proof.Proof.Gen.KernelIdeal.Launch
import proofs.«137306_j77867757076553_1_alg».proof.Proof.Gen.KernelIdeal.Points
import proofs.«137306_j77867757076553_1_alg».proof.Proof.Gen.KernelIdeal.Frame
import proofs.«137306_j77867757076553_1_alg».proof.Proof.Gen.ReferenceIdeal
import proofs.«137306_j77867757076553_1_alg».proof.Proof.Gen.Pre_finite_inputs
import proofs.«137306_j77867757076553_1_alg».proof.Proof.Gen.KernelIdeal.Value
import proofs.«137306_j77867757076553_1_alg».proof.Proof.Gen.ReferenceIdeal.Run
import proofs.«137306_j77867757076553_1_alg».proof.Proof.Gen.ReferenceIdeal.Read
import proofs.«137306_j77867757076553_1_alg».proof.Proof.GruSpec
import proofs.«137306_j77867757076553_1_alg».proof.Proof.RefIsGru
import proofs.«137306_j77867757076553_1_alg».proof.Proof.BodyIsGru
import proofs.«137306_j77867757076553_1_alg».proof.Proof.KernelIsGru
import Idealize.ShloMosaic.Adequacy
import Idealize.ShloMosaic.Init

noncomputable section

namespace Cert.Proof

open Idealize.ShloMosaic Idealize.ShloMosaic.TcCoe Idealize.SL.Sem

/-- The tiled program, read on machine words, runs and leaves its arguments as they were. -/
theorem frame_tiled_words : Cert.frame_Kernel := fun m ρ _ => Cert.Kernel.Gen.frame m ρ

/-- The tiled program, read on the extended reals, runs and leaves its arguments as they were. -/
theorem frame_tiled : Cert.frame_KernelIdeal := fun m ρ _ => Cert.KernelIdeal.Gen.frame m ρ

/-- The array program runs and leaves its arguments as they were: its run, with the result forgotten. -/
theorem frame_arrays : Cert.frame_ReferenceIdeal := fun m ρ _ =>
  (θ_run Cert.ReferenceIdeal.defs _ _).mono (fun _ h c => (h c).2) (Cert.ReferenceIdeal.Value.run (F := Ideal) m ρ)

/-- Nothing of the tiled program was rewritten when it was read on the extended reals. -/
theorem preserves : Cert.preserves_Kernel_KernelIdeal := trivial

/-- From memories that agree on the arguments, both programs end with the GRU step of those arguments. -/
theorem algebraic : Cert.algebraic_KernelIdeal_ReferenceIdeal := by
  intro m ρ m' ρ' _ hagree
  refine ⟨_, Cert.Gru.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v36_eq, Cert.Gru.Ref.result_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_tiled_words, frame_tiled, frame_arrays, preserves, algebraic⟩

end Cert.Proof

end
